-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1000000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .f32⟩
  | .hbm, ⟨21, _⟩ => ⟨S_, .f32⟩
  | .hbm, ⟨22, _⟩ => ⟨S100000x128, .f32⟩
  | .hbm, ⟨23, _⟩ => ⟨S1000000x1, .i32⟩
  | .hbm, ⟨24, _⟩ => ⟨S100000x128, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S100000, .f32⟩
  | .hbm, ⟨29, _⟩ => ⟨S1000000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x128, .f32⟩
  | .hbm, ⟨48, _⟩ => ⟨S_, .f32⟩
  | .hbm, ⟨49, _⟩ => ⟨S100000x128, .f32⟩
  | .hbm, ⟨50, _⟩ => ⟨S1000000x1, .i32⟩
  | .hbm, ⟨51, _⟩ => ⟨S100000x128, .f32⟩
  | .hbm, ⟨52, _⟩ => ⟨S_, .f32⟩
  | .hbm, ⟨53, _⟩ => ⟨S1000000, .f32⟩
  | .hbm, ⟨54, _⟩ => ⟨S_, .f32⟩
  | .hbm, ⟨55, _⟩ => ⟨S100000, .f32⟩
  | .hbm, ⟨56, _⟩ => ⟨S1000000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .f32⟩
  | .hbm, ⟨21, _⟩ => ⟨S_, .f32⟩
  | .hbm, ⟨22, _⟩ => ⟨S100000x128, .f32⟩
  | .hbm, ⟨23, _⟩ => ⟨S1000000x1, .i32⟩
  | .hbm, ⟨24, _⟩ => ⟨S100000x128, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S100000, .f32⟩
  | .hbm, ⟨29, _⟩ => ⟨S1000000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x128, .f32⟩
  | .hbm, ⟨55, _⟩ => ⟨S_, .f32⟩
  | .hbm, ⟨56, _⟩ => ⟨S100000x128, .f32⟩
  | .hbm, ⟨57, _⟩ => ⟨S1000000x1, .i32⟩
  | .hbm, ⟨58, _⟩ => ⟨S100000x128, .f32⟩
  | .hbm, ⟨59, _⟩ => ⟨S_, .f32⟩
  | .hbm, ⟨60, _⟩ => ⟨S1000000, .f32⟩
  | .hbm, ⟨61, _⟩ => ⟨S_, .f32⟩
  | .hbm, ⟨62, _⟩ => ⟨S100000, .f32⟩
  | .hbm, ⟨63, _⟩ => ⟨S1000000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with its RESULT named.

  The program is four stretches in order: host operations (the first neighbour mean), the first kernel region, host
  operations (the second neighbour mean, over the first region's output), the second kernel region.  The buffer
  contents at each boundary are a fold from the launch memory: `W1` after the first host stretch, `W2` after the
  first region (its output array at what its 25 write-backs leave, everything else as entered), `W3` after the
  second host stretch, `W4` after the second region.  Every weakly fair execution terminates without a fault, the
  argument arrays end as launched, and the result array ends at `W4`'s contents of it — which is what the second
  region's write-backs leave in its output window's array.
-/
import proofs.«119951_j6674379178178_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the four segments: the last thread state holds every unscoped buffer at the last boundary's contents
    `W4`, so the final memory reads `W4` at the result array and, walked back through the fold, the launch contents at
    each argument array. -/
theorem run_main : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result array after the run is what the second region's write-backs leave in its output window's array. -/
theorem result_eq (c : Dev nD) :
    W4 m ρ c (Proc.devRef .tc main_v45) = (dat1 (V3 m ρ) c).arrAt 5 cfg1.N :=
  W4_arr m ρ c 5

end Cert.KernelIdeal.Hand

end
-- ==== Proof.HostRead.lean ====
/-
  The host operations of the idealized kernel program, read back.

  Before each kernel region the program computes a neighbour mean on the host.  From the two rows of the edge list —
  the sources `src` and the targets `dst`, each a vector of 1000000 node numbers — and a feature array `z`:
  gather the rows of `z` at the sources (a negative number first wrapped by adding the node count), scatter-add them
  onto the targets starting from zeros, and divide each row by the number of edges that reach it, clamped below by
  one (`meanOver`).  The first stretch applies it to the input features, the second to the first region's output;
  both also reshape a bias vector to a row.  Nothing here opens the gather or the scatter: the neighbour mean stays
  one opaque function of its three arguments.
-/
import proofs.«119951_j6674379178178_1_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- Row 0 of the edge list as a vector: the source of each edge. -/
def srcOf (e : (⟨S2x1000000, .i32⟩ : BufTy).Contents (Elt F)) : (⟨S1000000, .i32⟩ : BufTy).Contents (Elt F) :=
  shapeCast _ (extractStridedSlice S1x1000000 ![0, 0] e slices_S2x1000000_S1x1000000_0_0) shapeCasts_S1x1000000_S1000000

/-- Row 1 of the edge list as a vector: the target of each edge. -/
def dstOf (e : (⟨S2x1000000, .i32⟩ : BufTy).Contents (Elt F)) : (⟨S1000000, .i32⟩ : BufTy).Contents (Elt F) :=
  shapeCast _ (extractStridedSlice S1x1000000 ![1, 0] e slices_S2x1000000_S1x1000000_1_0) shapeCasts_S1x1000000_S1000000

/-- The neighbour mean of `z` over the edges `src → dst`. -/
def meanOver (src dst : (⟨S1000000, .i32⟩ : BufTy).Contents (Elt F)) (z : (⟨S100000x128, .f32⟩ : BufTy).Contents (Elt F)) :
    (⟨S100000x128, .f32⟩ : BufTy).Contents (Elt F) :=
  Host.divf (F := F)
    (Host.scatterAdd scatter_S100000x128_S1000000x1_S1000000x128_1_0_0_1
      (broadcastInDim S100000x128 ![] bcast_S_S100000x128 (constant S_ .f32 0x00000000#32))
      (broadcastInDim S1000000x1 ![0] bcast_S1000000_S1000000x1_0 dst)
      (Host.gather gather_S100000x128_S1000000x1_S1000000x128_1_0_n_n_0_1_1128 z
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1000000x1_S1000000_n_0_0_1
            (broadcastInDim S100000 ![] bcast_S_S100000 (constant S_ .f32 0x00000000#32))
            (broadcastInDim S1000000x1 ![0] bcast_S1000000_S1000000x1_0 dst)
            (broadcastInDim S1000000 ![] bcast_S_S1000000 (constant S_ .f32 0x3F800000#32)))
          (broadcastInDim S100000 ![] bcast_S_S100000 (constant S_ .f32 0x3F800000#32)))))

/-! ## The first stretch, from any contents `X` -/

/-- The first region's mean operand: the neighbour mean of the input features. -/
theorem host0_mean (X : Valuation τ sig (Elt F)) :
    after hostOps0 X (Proc.devRef .tc main_v22)
      = meanOver (srcOf (X (Proc.devRef .tc main_arg1))) (dstOf (X (Proc.devRef .tc main_arg1))) (X (Proc.devRef .tc main_arg0)) := by
  after_results_simp <;> rfl

/-- The sources and the targets, which the second stretch reads again. -/
theorem host0_src (X : Valuation τ sig (Elt F)) :
    after hostOps0 X (Proc.devRef .tc main_v1) = srcOf (X (Proc.devRef .tc main_arg1)) := by
  after_results; rfl
theorem host0_dst (X : Valuation τ sig (Elt F)) :
    after hostOps0 X (Proc.devRef .tc main_v3) = dstOf (X (Proc.devRef .tc main_arg1)) := by
  after_results; rfl

/-- The first bias as a row. -/
theorem host0_bias (X : Valuation τ sig (Elt F)) :
    after hostOps0 X (Proc.devRef .tc main_v23) = shapeCast S1x128 (X (Proc.devRef .tc main_arg3)) shapeCasts_S128_S1x128 := by
  after_results; rfl

/-- The arguments pass through the first stretch unchanged. -/
theorem host0_arg0 (X : Valuation τ sig (Elt F)) : after hostOps0 X (Proc.devRef .tc main_arg0) = X (Proc.devRef .tc main_arg0) := by
  after_results
theorem host0_arg1 (X : Valuation τ sig (Elt F)) : after hostOps0 X (Proc.devRef .tc main_arg1) = X (Proc.devRef .tc main_arg1) := by
  after_results
theorem host0_arg2 (X : Valuation τ sig (Elt F)) : after hostOps0 X (Proc.devRef .tc main_arg2) = X (Proc.devRef .tc main_arg2) := by
  after_results
theorem host0_arg4 (X : Valuation τ sig (Elt F)) : after hostOps0 X (Proc.devRef .tc main_arg4) = X (Proc.devRef .tc main_arg4) := by
  after_results
theorem host0_arg5 (X : Valuation τ sig (Elt F)) : after hostOps0 X (Proc.devRef .tc main_arg5) = X (Proc.devRef .tc main_arg5) := by
  after_results
theorem host0_arg6 (X : Valuation τ sig (Elt F)) : after hostOps0 X (Proc.devRef .tc main_arg6) = X (Proc.devRef .tc main_arg6) := by
  after_results
theorem host0_arg7 (X : Valuation τ sig (Elt F)) : after hostOps0 X (Proc.devRef .tc main_arg7) = X (Proc.devRef .tc main_arg7) := by
  after_results

/-! ## The second stretch, from any contents `X` -/

/-- The second region's mean operand: the neighbour mean of the first region's output, over the same edges. -/
theorem host1_mean (X : Valuation τ sig (Elt F)) :
    after hostOps1 X (Proc.devRef .tc main_v43)
      = meanOver (X (Proc.devRef .tc main_v1)) (X (Proc.devRef .tc main_v3)) (X (Proc.devRef .tc main_v24)) := by
  after_results_simp <;> rfl

/-- The second bias as a row. -/
theorem host1_bias (X : Valuation τ sig (Elt F)) :
    after hostOps1 X (Proc.devRef .tc main_v44) = shapeCast S1x128 (X (Proc.devRef .tc main_arg6)) shapeCasts_S128_S1x128 := by
  after_results; rfl

/-- The first region's output and the second layer's weights pass through the second stretch unchanged. -/
theorem host1_hidden (X : Valuation τ sig (Elt F)) : after hostOps1 X (Proc.devRef .tc main_v24) = X (Proc.devRef .tc main_v24) := by
  after_results
theorem host1_arg5 (X : Valuation τ sig (Elt F)) : after hostOps1 X (Proc.devRef .tc main_arg5) = X (Proc.devRef .tc main_arg5) := by
  after_results
theorem host1_arg7 (X : Valuation τ sig (Elt F)) : after hostOps1 X (Proc.devRef .tc main_arg7) = X (Proc.devRef .tc main_arg7) := by
  after_results

end Cert.KernelIdeal.Hand

end
-- ==== Proof.SageSpec.lean ====
/-
  The mathematics both programs compute, stated once, over the extended reals.

  One GraphSAGE linear stage takes a neighbour-mean array `mean` and a feature array `x` (both
  100000 × 128), two 128 × 128 weight matrices and a bias row, and returns at row `p`, column `q`

      (Σ_k mean[p,k] · Wl[k,q]  +  Σ_k x[p,k] · Wr[k,q])  +  b[q].

  The network is two such stages with a rectifier between them; the neighbour mean itself (a gather
  along the source nodes, a scatter-add onto the target nodes, a division by the clamped in-degree)
  is the same chain of host operations in both programs, so it enters here only as a PARAMETER
  `A`: a function from a feature array to its neighbour-mean array.  Addition on the extended
  reals is commutative and associative, which is all the comparison of the two programs needs: they
  differ only in where the bias is added.
-/
import Idealize.ShloMosaic.PureOps.Ideal
import Idealize.ShloMosaic.Lib.ValueIdx

noncomputable section

open scoped BigOperators

namespace Cert.Sage

open Idealize.ShloMosaic Idealize.ShloMosaic.ValueIdx

/-- The shape of a node-feature array, of a weight matrix, of a bias vector, and of a bias row. -/
abbrev SN : Shape := ⟨2, ![100000, 128]⟩
abbrev SW : Shape := ⟨2, ![128, 128]⟩
abbrev SB : Shape := ⟨1, ![128]⟩
abbrev SR : Shape := ⟨2, ![1, 128]⟩

/-- One linear stage at row `p`, column `q`: both matrix products, summed, then the bias. -/
def linAt (mean x : SN.Idx → EReal) (Wl Wr : SW.Idx → EReal) (b : Fin 128 → EReal) (p : Fin 100000) (q : Fin 128) : EReal :=
  (∑ k : Fin 128, mean (ix2 p k) * Wl (ix2 k q) + ∑ k : Fin 128, x (ix2 p k) * Wr (ix2 k q)) + b q

/-- One linear stage as a whole array. -/
def lin (mean x : SN.Idx → EReal) (Wl Wr : SW.Idx → EReal) (b : Fin 128 → EReal) : SN.Idx → EReal :=
  fun i => linAt mean x Wl Wr b ⟨(i 0).val, (i 0).isLt⟩ ⟨(i 1).val, (i 1).isLt⟩

theorem lin_ix2 (mean x : SN.Idx → EReal) (Wl Wr : SW.Idx → EReal) (b : Fin 128 → EReal) (p : Fin 100000) (q : Fin 128) :
    lin mean x Wl Wr b (ix2 p q) = linAt mean x Wl Wr b p q := rfl

/-- The rectifier, element by element. -/
def relu (z : SN.Idx → EReal) : SN.Idx → EReal := fun i => max (z i) 0

/-- The hidden layer: the rectified first stage, over the neighbour mean `A x` of the input features. -/
def hidden (A : (SN.Idx → EReal) → SN.Idx → EReal) (x : SN.Idx → EReal) (W1l W1r : SW.Idx → EReal) (b1 : Fin 128 → EReal) :
    SN.Idx → EReal :=
  relu (lin (A x) x W1l W1r b1)

/-- The whole network: the second stage over the hidden layer and ITS neighbour mean. -/
def net (A : (SN.Idx → EReal) → SN.Idx → EReal) (x : SN.Idx → EReal) (W1l W1r : SW.Idx → EReal) (b1 : Fin 128 → EReal)
    (W2l W2r : SW.Idx → EReal) (b2 : Fin 128 → EReal) : SN.Idx → EReal :=
  lin (A (hidden A x W1l W1r b1)) (hidden A x W1l W1r b1) W2l W2r b2

/-- A bias vector, and a bias row (the vector reshaped to 1 × 128), as plain functions of the column. -/
def ofVec (v : SB.Idx → EReal) : Fin 128 → EReal := fun q => v (ix1 q)
def ofRow (r : SR.Idx → EReal) : Fin 128 → EReal := fun q => r (ix2 (0 : Fin 1) q)

/-- The same stage with the bias added BEFORE the second product: equal, by commutativity and associativity of
    addition on the extended reals (no finiteness is needed: only the order of three summands changes). -/
theorem linAt_bias_first (mean x : SN.Idx → EReal) (Wl Wr : SW.Idx → EReal) (b : Fin 128 → EReal) (p : Fin 100000) (q : Fin 128) :
    (∑ k : Fin 128, mean (ix2 p k) * Wl (ix2 k q) + b q) + ∑ k : Fin 128, x (ix2 p k) * Wr (ix2 k q)
      = linAt mean x Wl Wr b p q := by
  unfold linAt
  exact add_right_comm _ _ _

end Cert.Sage

end
-- ==== Proof.Layer0.lean ====
/-
  The first kernel region, read as a whole array.

  The region walks 25 grid points.  At point `t` it loads rows `4000·t … 4000·t + 3999` of the neighbour-mean array
  and of the feature array, both 128 × 128 weight matrices whole and the 1 × 128 bias row, and stores into the same
  rows of its output array, at row `p` and column `q` of the block,

      max ((Σ_k mean[p,k] · Wl[k,q] + Σ_k x[p,k] · Wr[k,q]) + b[0,q]) 0

  (the narrowing of the operands before each product is the identity on extended reals, and the accumulator both
  products start from is zero).  The 25 row blocks tile the 100000 rows, so after the last write-back the output array
  is the rectified linear stage of the specification, over the arrays exactly as the region found them.
-/
import proofs.«119951_j6674379178178_1_alg».proof.Proof.Gen.KernelIdeal.Frame
import proofs.«119951_j6674379178178_1_alg».proof.Proof.SageSpec
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Hand0

open Cert.KernelIdeal Cert.KernelIdeal.Gen

/-! ## One block's arithmetic, element by element -/

/-- The left operand of the block product at output index `i`: its row is `i`'s row … -/
theorem blockDot_lhs_row (i : S4000x128.Idx) (r : dot_S4000x128_S128x128_S4000x128_1_0_0_1_n_n.contr.Idx) :
    (dot_S4000x128_S128x128_S4000x128_1_0_0_1_n_n.lhsIdx i r 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
/-- … and its column the contraction coordinate. -/
theorem blockDot_lhs_col (i : S4000x128.Idx) (r : dot_S4000x128_S128x128_S4000x128_1_0_0_1_n_n.contr.Idx) :
    (dot_S4000x128_S128x128_S4000x128_1_0_0_1_n_n.lhsIdx i r 1).val = (r ⟨0, by decide⟩).val :=
  dot_S4000x128_S128x128_S4000x128_1_0_0_1_n_n.lhsIdx_val_of_single rfl i r
/-- The right operand there: its row is the contraction coordinate … -/
theorem blockDot_rhs_row (i : S4000x128.Idx) (r : dot_S4000x128_S128x128_S4000x128_1_0_0_1_n_n.contr.Idx) :
    (dot_S4000x128_S128x128_S4000x128_1_0_0_1_n_n.rhsIdx i r 0).val = (r ⟨0, by decide⟩).val :=
  dot_S4000x128_S128x128_S4000x128_1_0_0_1_n_n.rhsIdx_val_of_single rfl i r
/-- … and its column `i`'s column. -/
theorem blockDot_rhs_col (i : S4000x128.Idx) (r : dot_S4000x128_S128x128_S4000x128_1_0_0_1_n_n.contr.Idx) :
    (dot_S4000x128_S128x128_S4000x128_1_0_0_1_n_n.rhsIdx i r 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A 4000 × 128 by 128 × 128 product accumulated into zero, at row `p` and column `q`: the sum over the 128 inner
    coordinates of the products. -/
theorem blockDot_apply {φ₁ φ₂ : FTy} (a : FVec Ideal S4000x128 φ₁) (w : FVec Ideal S128x128 φ₂) (p : Fin 4000) (q : Fin 128) :
    matmul dot_S4000x128_S128x128_S4000x128_1_0_0_1_n_n none a w (constant S4000x128 .f32 0x00000000#32) (ix2 p q)
      = ∑ k : Fin 128, a (ix2 p k) * w (ix2 k q) := by
  refine (Ideal.matmul_constant_zero_apply _ none a w (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q)
      ((ValueIdx.contrEquiv1 dot_S4000x128_S128x128_S4000x128_1_0_0_1_n_n 128 rfl rfl).symm k) = (ix2 p k : S4000x128.Idx) :=
    funext fun a => Fin.ext (by
      match a with
      | ⟨0, _⟩ => exact blockDot_lhs_row _ _
      | ⟨1, _⟩ => exact (blockDot_lhs_col _ _).trans hk)
  have er : dot_S4000x128_S128x128_S4000x128_1_0_0_1_n_n.rhsIdx (ix2 p q)
      ((ValueIdx.contrEquiv1 dot_S4000x128_S128x128_S4000x128_1_0_0_1_n_n 128 rfl rfl).symm k) = (ix2 k q : S128x128.Idx) :=
    funext fun a => Fin.ext (by
      match a with
      | ⟨0, _⟩ => exact (blockDot_rhs_row _ _).trans hk
      | ⟨1, _⟩ => exact blockDot_rhs_col _ _)
  rw [el, er]

/-- THE BODY'S STORE at row `p`, column `q` of the block, from the five loaded blocks: both products, their sum, the
    bias row's entry at `q`, then the maximum with zero. -/
theorem pay_apply (x0 x1 : Vec Ideal S4000x128 .f32) (x2 x3 : Vec Ideal S128x128 .f32) (x4 : Vec Ideal S1x128 .f32)
    (p : Fin 4000) (q : Fin 128) :
    k0_pay1 x0 x1 x2 x3 x4 (ix2 p q)
      = max ((∑ k : Fin 128, x0 (ix2 p k) * x2 (ix2 k q) + ∑ k : Fin 128, x1 (ix2 p k) * x3 (ix2 k q))
              + x4 (ix2 (0 : Fin 1) q)) 0 := by
  unfold k0_pay1
  simp only [shapeCast_self]
  rw [maximumf_apply, addf_apply, addf_apply, blockDot_apply, blockDot_apply, broadcast_apply,
    broadcastTo_1b_ab_apply]
  simp only [truncf_apply]
  exact congrArg (max _) Ideal.ofBits_zero_f32

/-! ## One grid point: the stored block is the specification's rows -/

/-- What the region leaves in its output array: the rectified linear stage over the arrays as the region finds them. -/
abbrev layer0 (V : (c : Dev nD) → (b : Ref sig .tc) → Buf (Elt Ideal) ((c : Thread nD τ).loc b)) (c : Dev nD) :
    S100000x128.Idx → EReal :=
  Cert.Sage.relu (Cert.Sage.lin (V c main_v22) (V c main_arg0) (V c main_arg2) (V c main_arg4) (Cert.Sage.ofRow (V c main_v23)))

/-- If the two row blocks are rows `4000·T + p` of `mean` and `x`, and the other three blocks are the weight
    matrices and the bias row whole, then the stored block at `j` is the specification at the array index `i` that
    sits `4000·T` rows below `j`. -/
theorem stored_eq_spec (x0 x1 : Vec Ideal S4000x128 .f32) (x2 x3 : Vec Ideal S128x128 .f32) (x4 : Vec Ideal S1x128 .f32)
    (mean x : S100000x128.Idx → EReal) (Wl Wr : S128x128.Idx → EReal) (b : S1x128.Idx → EReal) (T : Nat)
    (h0 : ∀ (y : S4000x128.Idx) (i : S100000x128.Idx), (i 0).val = 4000 * T + (y 0).val → (i 1).val = (y 1).val → x0 y = mean i)
    (h1 : ∀ (y : S4000x128.Idx) (i : S100000x128.Idx), (i 0).val = 4000 * T + (y 0).val → (i 1).val = (y 1).val → x1 y = x i)
    (h2 : ∀ y, x2 y = Wl y) (h3 : ∀ y, x3 y = Wr y) (h4 : ∀ y, x4 y = b y)
    (j : S4000x128.Idx) (i : S100000x128.Idx) (hi0 : (i 0).val = 4000 * T + (j 0).val) (hi1 : (i 1).val = (j 1).val) :
    k0_pay1 x0 x1 x2 x3 x4 j = Cert.Sage.relu (Cert.Sage.lin mean x Wl Wr (Cert.Sage.ofRow b)) i := by
  obtain ⟨p, q, rfl⟩ : ∃ (p : Fin 4000) (q : Fin 128), j = ix2 p q := ⟨j 0, j 1, eq_ix2 j⟩
  obtain ⟨P, Q, rfl⟩ : ∃ (P : Fin 100000) (Q : Fin 128), i = ix2 P Q := ⟨i 0, i 1, eq_ix2 i⟩
  obtain rfl : Q = q := Fin.ext hi1
  have e0 : ∀ k : Fin 128, x0 (ix2 p k) = mean (ix2 P k) := fun k => h0 _ _ hi0 rfl
  have e1 : ∀ k : Fin 128, x1 (ix2 p k) = x (ix2 P k) := fun k => h1 _ _ hi0 rfl
  rw [pay_apply]
  show _ = max (Cert.Sage.linAt mean x Wl Wr (Cert.Sage.ofRow b) P Q) 0
  unfold Cert.Sage.linAt Cert.Sage.ofRow
  simp only [e0, e1, h2, h3, h4]

/-! ## The blocks the body loads, as parts of the arrays -/

theorem originZero : (![0, 0] : Fin 2 → Nat) = fun _ => 0 := funext fun a => by fin_cases a <;> rfl

/-- Where each window's block sits at point `t`, decided over the 25 points: the two row-blocked inputs and the output
    are at block row `t`, the weight matrices and the bias row at block `(0, 0)`. -/
theorem blockIndex : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

variable (V : (c : Dev nD) → (b : Ref sig .tc) → Buf (Elt Ideal) ((c : Thread nD τ).loc b))

/-- The neighbour-mean block at point `t` is rows `4000·t …` of the neighbour-mean array. -/
theorem meanBlock_apply (c : Dev nD) (t : Fin cfg0.N) (y : S4000x128.Idx) (i : S100000x128.Idx)
    (h0 : (i 0).val = 4000 * t.val + (y 0).val) (h1 : (i 1).val = (y 1).val) :
    (iblk0 V c 0 t : Vec Ideal S4000x128 .f32) y = (V c main_v22 : S100000x128.Idx → Elt Ideal .f32) i := by
  obtain ⟨⟨e0, e1⟩, -⟩ := blockIndex t
  unfold iblk0
  rw [View.read_apply]
  show V c main_v22 _ = V c main_v22 _
  congr 1
  funext a
  apply Fin.ext
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- The feature block at point `t` is the same rows of the feature array. -/
theorem featBlock_apply (c : Dev nD) (t : Fin cfg0.N) (y : S4000x128.Idx) (i : S100000x128.Idx)
    (h0 : (i 0).val = 4000 * t.val + (y 0).val) (h1 : (i 1).val = (y 1).val) :
    (iblk0 V c 1 t : Vec Ideal S4000x128 .f32) y = (V c main_arg0 : S100000x128.Idx → Elt Ideal .f32) i := by
  obtain ⟨-, ⟨e0, e1⟩, -⟩ := blockIndex t
  unfold iblk0
  rw [View.read_apply]
  show V c main_arg0 _ = V c main_arg0 _
  congr 1
  funext a
  apply Fin.ext
  match a with
  | ⟨0, _⟩ => show win0_1.index t (0 : Fin 2) * 4000 + 1 * (y 0).val = (i 0).val; rw [e0, h0]; omega
  | ⟨1, _⟩ => show win0_1.index t (1 : Fin 2) * 128 + 1 * (y 1).val = (i 1).val; rw [e1, h1]; omega

/-- The first weight block is the first weight matrix, whole, at every point. -/
theorem wlBlock_apply (c : Dev nD) (t : Fin cfg0.N) (y : S128x128.Idx) :
    (iblk0 V c 2 t : Vec Ideal S128x128 .f32) y = (V c main_arg2 : S128x128.Idx → Elt Ideal .f32) y := by
  obtain ⟨-, -, ⟨e0, e1⟩, -⟩ := blockIndex t
  unfold iblk0
  rw [View.read_apply]
  show V c main_arg2 _ = V c main_arg2 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The second weight block is the second weight matrix, whole. -/
theorem wrBlock_apply (c : Dev nD) (t : Fin cfg0.N) (y : S128x128.Idx) :
    (iblk0 V c 3 t : Vec Ideal S128x128 .f32) y = (V c main_arg4 : S128x128.Idx → Elt Ideal .f32) y := by
  obtain ⟨-, -, -, ⟨e0, e1⟩, -⟩ := blockIndex t
  unfold iblk0
  rw [View.read_apply]
  show V c main_arg4 _ = V c main_arg4 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias block is the bias row, whole. -/
theorem biasBlock_apply (c : Dev nD) (t : Fin cfg0.N) (y : S1x128.Idx) :
    (iblk0 V c 4 t : Vec Ideal S1x128 .f32) y = (V c main_v23 : S1x128.Idx → Elt Ideal .f32) y := by
  obtain ⟨-, -, -, -, ⟨e0, e1⟩, -⟩ := blockIndex t
  unfold iblk0
  rw [View.read_apply]
  show V c main_v23 _ = V c main_v23 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## From the 25 blocks to the array -/

/-- WHAT POINT `t` WRITES BACK is rows `4000·t …` of the rectified linear stage. -/
theorem flushed_eq_layer0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero originZero]
  simp only [View.ld_unit_zero (S := S4000x128) originZero, View.ld_unit_zero (S := S128x128) originZero,
    View.ld_unit_zero (S := S1x128) originZero]
  obtain ⟨-, -, -, -, -, ⟨e0, e1⟩⟩ := blockIndex t
  funext j
  show k0_pay1 (iblk0 V c 0 t) (iblk0 V c 1 t) (iblk0 V c 2 t) (iblk0 V c 3 t) (iblk0 V c 4 t) j
    = layer0 V c (((cfg0.win 5).blk t).view.emb j)
  refine stored_eq_spec _ _ _ _ _ _ _ _ _ _ t.val (meanBlock_apply V c t) (featBlock_apply V c t)
    (wlBlock_apply V c t) (wrBlock_apply V c t) (biasBlock_apply V c t) j _ ?_ ?_
  · show win0_5.index t (0 : Fin 2) * 4000 + 1 * (j 0).val = 4000 * t.val + (j 0).val
    rw [e0]; omega
  · show win0_5.index t (1 : Fin 2) * 128 + 1 * (j 1).val = (j 1).val
    rw [e1]; omega

/-- An array index is in point `t`'s output block iff each coordinate is in the block's range on its axis. -/
theorem mem_outBlock (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v24).slice (win0_5.rect t)).set ↔ _
  rw [View.set_slice_whole, Rect.mem_set_unit]
  exact Iff.rfl

/-- Every row of the output array is in some point's block: row `r` in the block of point `r / 4000`. -/
theorem rows_covered (i : S100000x128.Idx) :
    ∃ t : Fin cfg0.N, (cfg0.win 5).flush t = true ∧ i ∈ ((cfg0.win 5).blk t).view.set := by
  have hN : cfg0.N = 25 := N_0
  have hr : (i 0).val < 100000 := idx2_lt0 i
  have hq : (i 1).val < 128 := idx2_lt1 i
  let t : Fin cfg0.N := ⟨(i 0).val / 4000, by rw [hN]; omega⟩
  obtain ⟨-, -, -, -, -, ⟨e0, e1⟩⟩ := blockIndex t
  have ht : t.val = (i 0).val / 4000 := rfl
  refine ⟨t, flush0_5 t, ?_⟩
  rw [mem_outBlock]
  intro a
  match a with
  | ⟨0, _⟩ =>
    show win0_5.index t (0 : Fin 2) * 4000 ≤ (i 0).val ∧ (i 0).val < win0_5.index t (0 : Fin 2) * 4000 + 4000
    rw [e0, ht]; omega
  | ⟨1, _⟩ =>
    show win0_5.index t (1 : Fin 2) * 128 ≤ (i 1).val ∧ (i 1).val < win0_5.index t (1 : Fin 2) * 128 + 128
    rw [e1]; omega

end Cert.KernelIdeal.Hand0

namespace Cert.KernelIdeal.Hand

open Cert.KernelIdeal Cert.KernelIdeal.Gen

/-- THE OUTPUT ARRAY after the first region's 25 write-backs is the rectified linear stage of the arrays as the region
    found them. -/
theorem final0 (V : (c : Dev nD) → (b : Ref sig .tc) → Buf (Elt Ideal) ((c : Thread nD τ).loc b)) (c : Dev nD) :
    (dat0 V c).arrAt 5 cfg0.N
      = Cert.Sage.relu (Cert.Sage.lin (V c main_v22) (V c main_arg0) (V c main_arg2) (V c main_arg4) (Cert.Sage.ofRow (V c main_v23))) :=
  (dat0 V c).arrAt_eq_of_cover 5 (Hand0.layer0 V c) (fun t _ => Hand0.flushed_eq_layer0 V c t) Hand0.rows_covered

end Cert.KernelIdeal.Hand

end
-- ==== Proof.Layer1.lean ====
/-
  The second kernel region, read as a whole array.

  The same walk as the first region's, over the second layer's arrays and without the rectifier: at grid point `t` the
  body loads rows `4000·t … 4000·t + 3999` of the second neighbour-mean array and of the hidden-layer array, the second
  layer's two 128 × 128 weight matrices whole and its 1 × 128 bias row, and stores into the same rows of the output, at
  row `p` and column `q` of the block,

      (Σ_k mean[p,k] · Wl[k,q] + Σ_k h[p,k] · Wr[k,q]) + b[0,q].

  The 25 row blocks tile the 100000 rows, so after the last write-back the output array is the linear stage of the
  specification over the arrays exactly as the region found them.
-/
import proofs.«119951_j6674379178178_1_alg».proof.Proof.Gen.KernelIdeal.Frame
import proofs.«119951_j6674379178178_1_alg».proof.Proof.SageSpec
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Hand1

open Cert.KernelIdeal Cert.KernelIdeal.Gen

/-! ## One block's arithmetic, element by element -/

/-- The left operand of the block product at output index `i`: its row is `i`'s row … -/
theorem blockDot_lhs_row (i : S4000x128.Idx) (r : dot_S4000x128_S128x128_S4000x128_1_0_0_1_n_n.contr.Idx) :
    (dot_S4000x128_S128x128_S4000x128_1_0_0_1_n_n.lhsIdx i r 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
/-- … and its column the contraction coordinate. -/
theorem blockDot_lhs_col (i : S4000x128.Idx) (r : dot_S4000x128_S128x128_S4000x128_1_0_0_1_n_n.contr.Idx) :
    (dot_S4000x128_S128x128_S4000x128_1_0_0_1_n_n.lhsIdx i r 1).val = (r ⟨0, by decide⟩).val :=
  dot_S4000x128_S128x128_S4000x128_1_0_0_1_n_n.lhsIdx_val_of_single rfl i r
/-- The right operand there: its row is the contraction coordinate … -/
theorem blockDot_rhs_row (i : S4000x128.Idx) (r : dot_S4000x128_S128x128_S4000x128_1_0_0_1_n_n.contr.Idx) :
    (dot_S4000x128_S128x128_S4000x128_1_0_0_1_n_n.rhsIdx i r 0).val = (r ⟨0, by decide⟩).val :=
  dot_S4000x128_S128x128_S4000x128_1_0_0_1_n_n.rhsIdx_val_of_single rfl i r
/-- … and its column `i`'s column. -/
theorem blockDot_rhs_col (i : S4000x128.Idx) (r : dot_S4000x128_S128x128_S4000x128_1_0_0_1_n_n.contr.Idx) :
    (dot_S4000x128_S128x128_S4000x128_1_0_0_1_n_n.rhsIdx i r 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A 4000 × 128 by 128 × 128 product accumulated into zero, at row `p` and column `q`: the sum over the 128 inner
    coordinates of the products. -/
theorem blockDot_apply {φ₁ φ₂ : FTy} (a : FVec Ideal S4000x128 φ₁) (w : FVec Ideal S128x128 φ₂) (p : Fin 4000) (q : Fin 128) :
    matmul dot_S4000x128_S128x128_S4000x128_1_0_0_1_n_n none a w (constant S4000x128 .f32 0x00000000#32) (ix2 p q)
      = ∑ k : Fin 128, a (ix2 p k) * w (ix2 k q) := by
  refine (Ideal.matmul_constant_zero_apply _ none a w (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q)
      ((ValueIdx.contrEquiv1 dot_S4000x128_S128x128_S4000x128_1_0_0_1_n_n 128 rfl rfl).symm k) = (ix2 p k : S4000x128.Idx) :=
    funext fun a => Fin.ext (by
      match a with
      | ⟨0, _⟩ => exact blockDot_lhs_row _ _
      | ⟨1, _⟩ => exact (blockDot_lhs_col _ _).trans hk)
  have er : dot_S4000x128_S128x128_S4000x128_1_0_0_1_n_n.rhsIdx (ix2 p q)
      ((ValueIdx.contrEquiv1 dot_S4000x128_S128x128_S4000x128_1_0_0_1_n_n 128 rfl rfl).symm k) = (ix2 k q : S128x128.Idx) :=
    funext fun a => Fin.ext (by
      match a with
      | ⟨0, _⟩ => exact (blockDot_rhs_row _ _).trans hk
      | ⟨1, _⟩ => exact blockDot_rhs_col _ _)
  rw [el, er]

/-- THE BODY'S STORE at row `p`, column `q` of the block, from the five loaded blocks: both products, their sum, then
    the bias row's entry at `q`. -/
theorem pay_apply (x0 x1 : Vec Ideal S4000x128 .f32) (x2 x3 : Vec Ideal S128x128 .f32) (x4 : Vec Ideal S1x128 .f32)
    (p : Fin 4000) (q : Fin 128) :
    k1_pay1 x0 x1 x2 x3 x4 (ix2 p q)
      = (∑ k : Fin 128, x0 (ix2 p k) * x2 (ix2 k q) + ∑ k : Fin 128, x1 (ix2 p k) * x3 (ix2 k q))
          + x4 (ix2 (0 : Fin 1) q) := by
  unfold k1_pay1
  simp only [shapeCast_self]
  rw [addf_apply, addf_apply, blockDot_apply, blockDot_apply, broadcastTo_1b_ab_apply]
  simp only [truncf_apply]

/-! ## One grid point: the stored block is the specification's rows -/

/-- What the region leaves in its output array: the linear stage over the arrays as the region finds them. -/
abbrev layer1 (V : (c : Dev nD) → (b : Ref sig .tc) → Buf (Elt Ideal) ((c : Thread nD τ).loc b)) (c : Dev nD) :
    S100000x128.Idx → EReal :=
  Cert.Sage.lin (V c main_v43) (V c main_v24) (V c main_arg5) (V c main_arg7) (Cert.Sage.ofRow (V c main_v44))

/-- If the two row blocks are rows `4000·T + p` of `mean` and `x`, and the other three blocks are the weight
    matrices and the bias row whole, then the stored block at `j` is the specification at the array index `i` that
    sits `4000·T` rows below `j`. -/
theorem stored_eq_spec (x0 x1 : Vec Ideal S4000x128 .f32) (x2 x3 : Vec Ideal S128x128 .f32) (x4 : Vec Ideal S1x128 .f32)
    (mean x : S100000x128.Idx → EReal) (Wl Wr : S128x128.Idx → EReal) (b : S1x128.Idx → EReal) (T : Nat)
    (h0 : ∀ (y : S4000x128.Idx) (i : S100000x128.Idx), (i 0).val = 4000 * T + (y 0).val → (i 1).val = (y 1).val → x0 y = mean i)
    (h1 : ∀ (y : S4000x128.Idx) (i : S100000x128.Idx), (i 0).val = 4000 * T + (y 0).val → (i 1).val = (y 1).val → x1 y = x i)
    (h2 : ∀ y, x2 y = Wl y) (h3 : ∀ y, x3 y = Wr y) (h4 : ∀ y, x4 y = b y)
    (j : S4000x128.Idx) (i : S100000x128.Idx) (hi0 : (i 0).val = 4000 * T + (j 0).val) (hi1 : (i 1).val = (j 1).val) :
    k1_pay1 x0 x1 x2 x3 x4 j = Cert.Sage.lin mean x Wl Wr (Cert.Sage.ofRow b) i := by
  obtain ⟨p, q, rfl⟩ : ∃ (p : Fin 4000) (q : Fin 128), j = ix2 p q := ⟨j 0, j 1, eq_ix2 j⟩
  obtain ⟨P, Q, rfl⟩ : ∃ (P : Fin 100000) (Q : Fin 128), i = ix2 P Q := ⟨i 0, i 1, eq_ix2 i⟩
  obtain rfl : Q = q := Fin.ext hi1
  have e0 : ∀ k : Fin 128, x0 (ix2 p k) = mean (ix2 P k) := fun k => h0 _ _ hi0 rfl
  have e1 : ∀ k : Fin 128, x1 (ix2 p k) = x (ix2 P k) := fun k => h1 _ _ hi0 rfl
  rw [pay_apply]
  show _ = Cert.Sage.linAt mean x Wl Wr (Cert.Sage.ofRow b) P Q
  unfold Cert.Sage.linAt Cert.Sage.ofRow
  simp only [e0, e1, h2, h3, h4]

/-! ## The blocks the body loads, as parts of the arrays -/

theorem originZero : (![0, 0] : Fin 2 → Nat) = fun _ => 0 := funext fun a => by fin_cases a <;> rfl

/-- Where each window's block sits at point `t`, decided over the 25 points: the two row-blocked inputs and the output
    are at block row `t`, the weight matrices and the bias row at block `(0, 0)`. -/
theorem blockIndex : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

variable (V : (c : Dev nD) → (b : Ref sig .tc) → Buf (Elt Ideal) ((c : Thread nD τ).loc b))

/-- The neighbour-mean block at point `t` is rows `4000·t …` of the second neighbour-mean array. -/
theorem meanBlock_apply (c : Dev nD) (t : Fin cfg1.N) (y : S4000x128.Idx) (i : S100000x128.Idx)
    (h0 : (i 0).val = 4000 * t.val + (y 0).val) (h1 : (i 1).val = (y 1).val) :
    (iblk1 V c 0 t : Vec Ideal S4000x128 .f32) y = (V c main_v43 : S100000x128.Idx → Elt Ideal .f32) i := by
  obtain ⟨⟨e0, e1⟩, -⟩ := blockIndex t
  unfold iblk1
  rw [View.read_apply]
  show V c main_v43 _ = V c main_v43 _
  congr 1
  funext a
  apply Fin.ext
  match a with
  | ⟨0, _⟩ => show win1_0.index t (0 : Fin 2) * 4000 + 1 * (y 0).val = (i 0).val; rw [e0, h0]; omega
  | ⟨1, _⟩ => show win1_0.index t (1 : Fin 2) * 128 + 1 * (y 1).val = (i 1).val; rw [e1, h1]; omega

/-- The hidden-layer block at point `t` is the same rows of the hidden-layer array. -/
theorem hiddenBlock_apply (c : Dev nD) (t : Fin cfg1.N) (y : S4000x128.Idx) (i : S100000x128.Idx)
    (h0 : (i 0).val = 4000 * t.val + (y 0).val) (h1 : (i 1).val = (y 1).val) :
    (iblk1 V c 1 t : Vec Ideal S4000x128 .f32) y = (V c main_v24 : S100000x128.Idx → Elt Ideal .f32) i := by
  obtain ⟨-, ⟨e0, e1⟩, -⟩ := blockIndex t
  unfold iblk1
  rw [View.read_apply]
  show V c main_v24 _ = V c main_v24 _
  congr 1
  funext a
  apply Fin.ext
  match a with
  | ⟨0, _⟩ => show win1_1.index t (0 : Fin 2) * 4000 + 1 * (y 0).val = (i 0).val; rw [e0, h0]; omega
  | ⟨1, _⟩ => show win1_1.index t (1 : Fin 2) * 128 + 1 * (y 1).val = (i 1).val; rw [e1, h1]; omega

/-- The first weight block is the first weight matrix, whole, at every point. -/
theorem wlBlock_apply (c : Dev nD) (t : Fin cfg1.N) (y : S128x128.Idx) :
    (iblk1 V c 2 t : Vec Ideal S128x128 .f32) y = (V c main_arg5 : S128x128.Idx → Elt Ideal .f32) y := by
  obtain ⟨-, -, ⟨e0, e1⟩, -⟩ := blockIndex t
  unfold iblk1
  rw [View.read_apply]
  show V c main_arg5 _ = V c main_arg5 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The second weight block is the second weight matrix, whole. -/
theorem wrBlock_apply (c : Dev nD) (t : Fin cfg1.N) (y : S128x128.Idx) :
    (iblk1 V c 3 t : Vec Ideal S128x128 .f32) y = (V c main_arg7 : S128x128.Idx → Elt Ideal .f32) y := by
  obtain ⟨-, -, -, ⟨e0, e1⟩, -⟩ := blockIndex t
  unfold iblk1
  rw [View.read_apply]
  show V c main_arg7 _ = V c main_arg7 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias block is the bias row, whole. -/
theorem biasBlock_apply (c : Dev nD) (t : Fin cfg1.N) (y : S1x128.Idx) :
    (iblk1 V c 4 t : Vec Ideal S1x128 .f32) y = (V c main_v44 : S1x128.Idx → Elt Ideal .f32) y := by
  obtain ⟨-, -, -, -, ⟨e0, e1⟩, -⟩ := blockIndex t
  unfold iblk1
  rw [View.read_apply]
  show V c main_v44 _ = V c main_v44 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-! ## From the 25 blocks to the array -/

/-- WHAT POINT `t` WRITES BACK is rows `4000·t …` of the linear stage. -/
theorem flushed_eq_layer1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero originZero]
  simp only [View.ld_unit_zero (S := S4000x128) originZero, View.ld_unit_zero (S := S128x128) originZero,
    View.ld_unit_zero (S := S1x128) originZero]
  obtain ⟨-, -, -, -, -, ⟨e0, e1⟩⟩ := blockIndex t
  funext j
  show k1_pay1 (iblk1 V c 0 t) (iblk1 V c 1 t) (iblk1 V c 2 t) (iblk1 V c 3 t) (iblk1 V c 4 t) j
    = layer1 V c (((cfg1.win 5).blk t).view.emb j)
  refine stored_eq_spec _ _ _ _ _ _ _ _ _ _ t.val (meanBlock_apply V c t) (hiddenBlock_apply V c t)
    (wlBlock_apply V c t) (wrBlock_apply V c t) (biasBlock_apply V c t) j _ ?_ ?_
  · show win1_5.index t (0 : Fin 2) * 4000 + 1 * (j 0).val = 4000 * t.val + (j 0).val
    rw [e0]; omega
  · show win1_5.index t (1 : Fin 2) * 128 + 1 * (j 1).val = (j 1).val
    rw [e1]; omega

/-- An array index is in point `t`'s output block iff each coordinate is in the block's range on its axis. -/
theorem mem_outBlock (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v45).slice (win1_5.rect t)).set ↔ _
  rw [View.set_slice_whole, Rect.mem_set_unit]
  exact Iff.rfl

/-- Every row of the output array is in some point's block: row `r` in the block of point `r / 4000`. -/
theorem rows_covered (i : S100000x128.Idx) :
    ∃ t : Fin cfg1.N, (cfg1.win 5).flush t = true ∧ i ∈ ((cfg1.win 5).blk t).view.set := by
  have hN : cfg1.N = 25 := N_1
  have hr : (i 0).val < 100000 := idx2_lt0 i
  have hq : (i 1).val < 128 := idx2_lt1 i
  let t : Fin cfg1.N := ⟨(i 0).val / 4000, by rw [hN]; omega⟩
  obtain ⟨-, -, -, -, -, ⟨e0, e1⟩⟩ := blockIndex t
  have ht : t.val = (i 0).val / 4000 := rfl
  refine ⟨t, flush1_5 t, ?_⟩
  rw [mem_outBlock]
  intro a
  match a with
  | ⟨0, _⟩ =>
    show win1_5.index t (0 : Fin 2) * 4000 ≤ (i 0).val ∧ (i 0).val < win1_5.index t (0 : Fin 2) * 4000 + 4000
    rw [e0, ht]; omega
  | ⟨1, _⟩ =>
    show win1_5.index t (1 : Fin 2) * 128 ≤ (i 1).val ∧ (i 1).val < win1_5.index t (1 : Fin 2) * 128 + 128
    rw [e1]; omega

end Cert.KernelIdeal.Hand1

namespace Cert.KernelIdeal.Hand

open Cert.KernelIdeal Cert.KernelIdeal.Gen

/-- THE OUTPUT ARRAY after the second region's 25 write-backs is the linear stage of the arrays as the region found
    them. -/
theorem final1 (V : (c : Dev nD) → (b : Ref sig .tc) → Buf (Elt Ideal) ((c : Thread nD τ).loc b)) (c : Dev nD) :
    (dat1 V c).arrAt 5 cfg1.N
      = Cert.Sage.lin (V c main_v43) (V c main_v24) (V c main_arg5) (V c main_arg7) (Cert.Sage.ofRow (V c main_v44)) :=
  (dat1 V c).arrAt_eq_of_cover 5 (Hand1.layer1 V c) (fun t _ => Hand1.flushed_eq_layer1 V c t) Hand1.rows_covered

end Cert.KernelIdeal.Hand

end
-- ==== Proof.KernelNet.lean ====
/-
  The idealized kernel program's result as ONE function of the launch's arrays.

  Walking the run's boundary contents back from the end: the result array is what the second region's write-backs
  leave; the second region, over the arrays it finds, leaves the linear stage of them; it finds the neighbour mean of
  the first region's output (the second host stretch, over the sources and targets the first stretch computed, which
  the first region does not touch), that output itself, the second layer's weights as launched and the second bias as
  a row; the first region's output is the rectified linear stage of what IT finds: the neighbour mean of the input
  features, the features, the first layer's weights and the first bias as a row.  A bias vector reshaped to a row
  reads, along the row, the vector.  Composed: the two-stage network of the specification, over the neighbour mean
  along the launch's edge list.
-/
import proofs.«119951_j6674379178178_1_alg».proof.Proof.KernelRun
import proofs.«119951_j6674379178178_1_alg».proof.Proof.HostRead
import proofs.«119951_j6674379178178_1_alg».proof.Proof.Layer0
import proofs.«119951_j6674379178178_1_alg».proof.Proof.Layer1
import proofs.«119951_j6674379178178_1_alg».proof.Proof.SageSpec
import Idealize.ShloMosaic.Lib.ValueLayout

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- A bias vector reshaped to a row reads, along the row, the vector. -/
theorem ofRow_reshape (b : (⟨S128, .f32⟩ : BufTy).Contents (Elt Ideal)) :
    Cert.Sage.ofRow (shapeCast S1x128 b shapeCasts_S128_S1x128) = Cert.Sage.ofVec b :=
  funext fun q => ValueIdx.shapeCast_a_1a_apply b shapeCasts_S128_S1x128 (0 : Fin 1) q

/-- The neighbour mean over the launch's edge list, as a function of the feature array. -/
def meanK (c : Dev nD) : (⟨S100000x128, .f32⟩ : BufTy).Contents (Elt Ideal) → (⟨S100000x128, .f32⟩ : BufTy).Contents (Elt Ideal) :=
  meanOver (srcOf (m ((c : Thread nD τ).loc main_arg1))) (dstOf (m ((c : Thread nD τ).loc main_arg1)))

/-- The hidden layer: what the first region leaves in its output array. -/
theorem hidden_eq (c : Dev nD) :
    (dat0 (V1 m ρ) c).arrAt 5 cfg0.N
      = Cert.Sage.hidden (meanK m c) (m ((c : Thread nD τ).loc main_arg0)) (m ((c : Thread nD τ).loc main_arg2))
          (m ((c : Thread nD τ).loc main_arg4)) (Cert.Sage.ofVec (m ((c : Thread nD τ).loc main_arg3))) := by
  rw [final0 (V1 m ρ) c]
  have e0 : V1 m ρ c main_v22 = meanK m c (m ((c : Thread nD τ).loc main_arg0)) := host0_mean (W0 m ρ c)
  have e1 : V1 m ρ c main_arg0 = m ((c : Thread nD τ).loc main_arg0) := host0_arg0 (W0 m ρ c)
  have e2 : V1 m ρ c main_arg2 = m ((c : Thread nD τ).loc main_arg2) := host0_arg2 (W0 m ρ c)
  have e3 : V1 m ρ c main_arg4 = m ((c : Thread nD τ).loc main_arg4) := host0_arg4 (W0 m ρ c)
  have e4 : V1 m ρ c main_v23 = shapeCast S1x128 (m ((c : Thread nD τ).loc main_arg3)) shapeCasts_S128_S1x128 := host0_bias (W0 m ρ c)
  rw [e0, e1, e2, e3, e4, ofRow_reshape]
  rfl

/-- What the second region finds: every buffer the first region does not write is as the first stretch left it. -/
theorem W2_keep (c : Dev nD) (b : Ref sig .tc) (hb : ∀ w, Pipeline.arrRef spec0 w ≠ b) :
    W2 m ρ c (Proc.devRef .tc b) = after hostOps0 (W0 m ρ c) (Proc.devRef .tc b) :=
  W2_of_ne m ρ c b hb

/-- THE KERNEL PROGRAM'S RESULT: the two-stage network over the launch's arrays. -/
theorem result_net (c : Dev nD) :
    W4 m ρ c (Proc.devRef .tc main_v45)
      = Cert.Sage.net (meanK m c) (m ((c : Thread nD τ).loc main_arg0)) (m ((c : Thread nD τ).loc main_arg2))
          (m ((c : Thread nD τ).loc main_arg4)) (Cert.Sage.ofVec (m ((c : Thread nD τ).loc main_arg3)))
          (m ((c : Thread nD τ).loc main_arg5)) (m ((c : Thread nD τ).loc main_arg7)) (Cert.Sage.ofVec (m ((c : Thread nD τ).loc main_arg6))) := by
  rw [result_eq, final1 (V3 m ρ) c]
  have hh : W2 m ρ c (Proc.devRef .tc main_v24) = (dat0 (V1 m ρ) c).arrAt 5 cfg0.N := W2_arr m ρ c 5
  have hs : W2 m ρ c (Proc.devRef .tc main_v1) = srcOf (m ((c : Thread nD τ).loc main_arg1)) :=
    (W2_keep m ρ c main_v1 (by decide)).trans (host0_src (W0 m ρ c))
  have hd : W2 m ρ c (Proc.devRef .tc main_v3) = dstOf (m ((c : Thread nD τ).loc main_arg1)) :=
    (W2_keep m ρ c main_v3 (by decide)).trans (host0_dst (W0 m ρ c))
  have h5 : W2 m ρ c (Proc.devRef .tc main_arg5) = m ((c : Thread nD τ).loc main_arg5) :=
    (W2_keep m ρ c main_arg5 (by decide)).trans (host0_arg5 (W0 m ρ c))
  have h6 : W2 m ρ c (Proc.devRef .tc main_arg6) = m ((c : Thread nD τ).loc main_arg6) :=
    (W2_keep m ρ c main_arg6 (by decide)).trans (host0_arg6 (W0 m ρ c))
  have h7 : W2 m ρ c (Proc.devRef .tc main_arg7) = m ((c : Thread nD τ).loc main_arg7) :=
    (W2_keep m ρ c main_arg7 (by decide)).trans (host0_arg7 (W0 m ρ c))
  have e0 : V3 m ρ c main_v43 = meanK m c ((dat0 (V1 m ρ) c).arrAt 5 cfg0.N) :=
    (host1_mean (W2 m ρ c)).trans (by rw [hs, hd, hh]; rfl)
  have e1 : V3 m ρ c main_v24 = (dat0 (V1 m ρ) c).arrAt 5 cfg0.N := (host1_hidden (W2 m ρ c)).trans hh
  have e2 : V3 m ρ c main_arg5 = m ((c : Thread nD τ).loc main_arg5) := (host1_arg5 (W2 m ρ c)).trans h5
  have e3 : V3 m ρ c main_arg7 = m ((c : Thread nD τ).loc main_arg7) := (host1_arg7 (W2 m ρ c)).trans h7
  have e4 : V3 m ρ c main_v44 = shapeCast S1x128 (m ((c : Thread nD τ).loc main_arg6)) shapeCasts_S128_S1x128 :=
    (host1_bias (W2 m ρ c)).trans (by rw [h6])
  rw [e0, e1, e2, e3, e4, ofRow_reshape, hidden_eq]
  rfl

end Cert.KernelIdeal.Hand

end
-- ==== Proof.RefAgg.lean ====
/-
  The neighbour mean as the reference program's host operations compute it.

  From the edge list (a 2 × 1000000 array of node numbers: row 0 the source of each edge, row 1 its target) and a
  feature array `z`: gather the rows of `z` at the sources (a negative number first wrapped by adding the node
  count, as array indexing does), scatter-add them onto the targets starting from zeros, and divide each row by
  the number of edges that reach it, clamped below by one.  The reference applies this chain twice, once to the
  input features and once to the hidden layer; here it is named once, as a function of `z`.
-/
import proofs.«119951_j6674379178178_1_alg».proof.Proof.Gen.ReferenceIdeal.Read
import proofs.«119951_j6674379178178_1_alg».proof.Proof.SageSpec

noncomputable section

namespace Cert.SageRef

open Cert.ReferenceIdeal Cert.ReferenceIdeal.Gen Cert.ReferenceIdeal.Read Idealize.ShloMosaic

/-- The neighbour mean of `z` along the edges `e`: the stages that read only the edge list are the generated
    reading's (`val_main_v9`: the wrapped sources as a column; `val_main_v12`: the targets as a column;
    `val_main_v11`: the zero array; `val_main_v21`: the clamped in-degrees broadcast along the rows). -/
def agg (e : IVec S2x1000000 32) (z : FVec Ideal S100000x128 .f32) : FVec Ideal S100000x128 .f32 :=
  Host.divf (F := Ideal)
    (Host.scatterAdd scatter_S100000x128_S1000000x1_S1000000x128_1_0_0_1 (val_main_v11 (F := Ideal)) (val_main_v12 (F := Ideal) e)
      (Host.gather gather_S100000x128_S1000000x1_S1000000x128_1_0_n_n_0_1_1128 z (val_main_v9 (F := Ideal) e)))
    (val_main_v21 (F := Ideal) e)

end Cert.SageRef

end
-- ==== Proof.RefNet.lean ====
/-
  The reference program computes the network of the specification.

  The reference's result is read stage by stage.  Each layer is the neighbour mean of the layer's
  input (the chain gather, scatter-add, divide, named once as a function of the feature array),
  then   mean · Wl + b + x · Wr   row by row, the bias being broadcast along the rows; the first
  layer is followed by the rectifier max(·, 0).  A matrix product read at row p, column q is the
  sum over k of the left factor at (p, k) times the right factor at (k, q); the broadcast bias at
  (p, q) is b q; so one stage at (p, q) is

      (Σ_k mean[p,k] · Wl[k,q] + b[q]) + Σ_k x[p,k] · Wr[k,q],

  which is the specification's stage with the bias moved to the end (addition on the extended reals
  is commutative and associative).  The stages of the second layer that read only the edge list
  (the wrapped sources, the targets, the zero array, the clamped in-degrees) are the same operations
  on the same edge list as the first layer's, so the second layer's neighbour mean is the same
  function, applied to the hidden layer.
-/
import proofs.«119951_j6674379178178_1_alg».proof.Proof.RefAgg

noncomputable section

namespace Cert.SageRef

open Cert.ReferenceIdeal Cert.ReferenceIdeal.Gen Cert.ReferenceIdeal.Read Idealize.ShloMosaic
open Idealize.ShloMosaic.ValueIdx
open scoped BigOperators

/-! ## One matrix product, one broadcast bias, read at row p, column q -/

/-- A 100000 × 128 by 128 × 128 product at (p, q): the sum over k of a[p,k] · W[k,q]. -/
theorem dot_at (a : FVec Ideal S100000x128 .f32) (W : FVec Ideal S128x128 .f32)
    (p : Fin 100000) (q : Fin 128) :
    Host.dotGeneral (F := Ideal) dot_S100000x128_S128x128_S100000x128_1_0_0_1_n_n none a W (ix2 p q)
      = ∑ k : Fin 128, a (ix2 p k) * W (ix2 k q) := by
  have h := val_main_v27_apply a W (ix2 p q)
  unfold val_main_v27 at h
  rw [h]
  refine Finset.sum_congr rfl fun k _ => ?_
  have el : lidx_main_v27 (ix2 p q) k = ix2 p k :=
    funext fun d => Fin.ext (by match d with | ⟨0, _⟩ => rfl | ⟨1, _⟩ => rfl)
  have er : ridx_main_v27 (ix2 p q) k = ix2 k q :=
    funext fun d => Fin.ext (by match d with | ⟨0, _⟩ => rfl | ⟨1, _⟩ => rfl)
  rw [el, er]

/-- The bias vector, made a row and repeated along the 100000 rows, at (p, q) is b q. -/
theorem bias_at (b : FVec Ideal S128 .f32) (p : Fin 100000) (q : Fin 128) :
    broadcastInDim S100000x128 ![0, 1] bcast_S1x128_S100000x128_0_1 (broadcastInDim S1x128 ![1] bcast_S128_S1x128_1 b) (ix2 p q)
      = Cert.Sage.ofVec b q := by
  have h := val_main_v25_apply (F := Ideal) b (ix2 p q)
  rw [val_main_v24_apply] at h
  unfold val_main_v25 val_main_v24 at h
  rw [h]
  unfold Cert.Sage.ofVec
  refine congrArg b (funext fun d => Fin.ext (by match d with | ⟨0, _⟩ => rfl))

/-! ## One stage, and the rectifier -/

/-- One stage of the reference, mean · Wl + b + x · Wr, is the specification's linear stage. -/
theorem stage_is_lin (mean x : FVec Ideal S100000x128 .f32) (Wl Wr : FVec Ideal S128x128 .f32)
    (b : FVec Ideal S128 .f32) :
    addf (F := Ideal)
        (addf (F := Ideal) (Host.dotGeneral (F := Ideal) dot_S100000x128_S128x128_S100000x128_1_0_0_1_n_n none mean Wl)
          (broadcastInDim S100000x128 ![0, 1] bcast_S1x128_S100000x128_0_1 (broadcastInDim S1x128 ![1] bcast_S128_S1x128_1 b)))
        (Host.dotGeneral (F := Ideal) dot_S100000x128_S128x128_S100000x128_1_0_0_1_n_n none x Wr)
      = Cert.Sage.lin mean x Wl Wr (Cert.Sage.ofVec b) := by
  funext i
  obtain ⟨p, q, rfl⟩ : ∃ (p : Fin 100000) (q : Fin 128), i = ix2 p q := ⟨i 0, i 1, eq_ix2 i⟩
  rw [addf_apply, addf_apply, dot_at, dot_at, bias_at, Cert.Sage.lin_ix2]
  exact Cert.Sage.linAt_bias_first mean x Wl Wr (Cert.Sage.ofVec b) p q

/-- The maximum with the zero array is the rectifier. -/
theorem max_zero_is_relu (z : FVec Ideal S100000x128 .f32) :
    maximumf (F := Ideal) z (val_main_call0_v0 (F := Ideal)) = Cert.Sage.relu z := by
  funext i
  rw [maximumf_apply, val_main_call0_v0_apply, val_main_call0_cst_apply]
  unfold Cert.Sage.relu
  exact congrArg (max (z i)) Ideal.ofBits_zero_f32

/-! ## The stages that read only the edge list are the same in both layers -/

theorem sources_again (e : IVec S2x1000000 32) :
    val_main_v35 (F := Ideal) e = val_main_v9 (F := Ideal) e := by
  unfold val_main_v35 val_main_v9 val_main_v34 val_main_v8 val_main_v31 val_main_v5 val_main_v33 val_main_v7
    val_main_v30 val_main_v4 val_main_v32 val_main_v6 val_main_c_4 val_main_c val_main_c_5 val_main_c_0
  rfl

theorem zeros_again : val_main_v37 (F := Ideal) = val_main_v11 (F := Ideal) := by
  unfold val_main_v37 val_main_v11 val_main_cst_6 val_main_cst
  rfl

theorem targets_again (e : IVec S2x1000000 32) :
    val_main_v38 (F := Ideal) e = val_main_v12 (F := Ideal) e := by
  unfold val_main_v38 val_main_v12
  rfl

theorem degrees_again (e : IVec S2x1000000 32) :
    val_main_v47 (F := Ideal) e = val_main_v21 (F := Ideal) e := by
  unfold val_main_v47 val_main_v21 val_main_v46 val_main_v20 val_main_v45 val_main_v19 val_main_v43 val_main_v17
    val_main_v44 val_main_v18 val_main_v41 val_main_v15 val_main_v42 val_main_v16 val_main_v40 val_main_v14
    val_main_cst_9 val_main_cst_3 val_main_cst_8 val_main_cst_2 val_main_cst_7 val_main_cst_1
  rfl

/-! ## The two layers -/

/-- The first layer's neighbour mean is the neighbour mean of the input features. -/
theorem mean1_is_agg (x0 : FVec Ideal S100000x128 .f32) (x1 : IVec S2x1000000 32) :
    val_main_v22 (F := Ideal) x0 x1 = agg x1 x0 := by
  unfold val_main_v22 val_main_v13 val_main_v10 agg
  rfl

/-- The reference's hidden layer is the specification's. -/
theorem hidden_is_spec (x0 : FVec Ideal S100000x128 .f32) (x1 : IVec S2x1000000 32)
    (x2 : FVec Ideal S128x128 .f32) (x3 : FVec Ideal S128 .f32)
    (x4 : FVec Ideal S128x128 .f32) :
    val_main_v29 (F := Ideal) x0 x1 x2 x3 x4 = Cert.Sage.hidden (agg x1) x0 x2 x4 (Cert.Sage.ofVec x3) := by
  unfold val_main_v29 val_main_v28 val_main_v26 val_main_v23 val_main_v27 val_main_v25 val_main_v24
  rw [mean1_is_agg, stage_is_lin, max_zero_is_relu]
  rfl

/-- The second layer's neighbour mean is the neighbour mean of the hidden layer. -/
theorem mean2_is_agg (x0 : FVec Ideal S100000x128 .f32) (x1 : IVec S2x1000000 32)
    (x2 : FVec Ideal S128x128 .f32) (x3 : FVec Ideal S128 .f32)
    (x4 : FVec Ideal S128x128 .f32) :
    val_main_v48 (F := Ideal) x0 x1 x2 x3 x4 = agg x1 (val_main_v29 (F := Ideal) x0 x1 x2 x3 x4) := by
  unfold val_main_v48 val_main_v39 val_main_v36 agg
  rw [sources_again, zeros_again, targets_again, degrees_again]

theorem ref_is_net (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v54 (F := Ideal) x0 x1 x2 x3 x4 x5 x6 x7
      = Cert.Sage.net (agg x1) x0 x2 x4 (Cert.Sage.ofVec x3) x5 x7 (Cert.Sage.ofVec x6) := by
  unfold val_main_v54 val_main_v52 val_main_v49 val_main_v53 val_main_v51 val_main_v50
  rw [mean2_is_agg, stage_is_lin, hidden_is_spec]
  rfl

end Cert.SageRef

end
-- ==== Proof.lean ====
/-
  A two-layer GraphSAGE network (mean aggregation), computed two ways, is one function over the extended reals.

  Both programs compute, per layer, the neighbour mean of the layer's input along the same edge list by the same
  host operations (gather at the sources, scatter-add onto the targets, divide by the clamped in-degree), and then a
  linear stage of the mean and the input.  The kernel program computes the stage in a pipelined kernel, 4000 rows
  at a time, as  (mean · Wl + x · Wr) + b ; the reference computes it on the host as  (mean · Wl + b) + x · Wr .  The
  first layer is followed by the rectifier in both.  With floats read as extended reals and every operation exact,
  a change of float format is the identity, a block product into a zero accumulator and a host matrix product are
  the same sum over the contracted index, and the two stages differ only in the order of three summands: addition
  on the extended reals is commutative and associative, so they are equal — at every input, finite or not; the
  precondition is never opened.

  The pieces: the specification (SageSpec), the kernel program's run with its result named (KernelRun), its host
  stretches read back (HostRead), each region's output array as one function of what the region finds (Layer0,
  Layer1), these composed into the network (KernelNet), the reference's neighbour mean named (RefAgg) and its result
  shown to be the same network (RefNet).  Here: the two neighbour means are one function, and the five claims.
-/
import proofs.«119951_j6674379178178_1_alg».proof.Defs
import proofs.«119951_j6674379178178_1_alg».proof.Proof.Gen.Kernel
import proofs.«119951_j6674379178178_1_alg».proof.Proof.Gen.Kernel.Skeleton
import proofs.«119951_j6674379178178_1_alg».proof.Proof.Gen.Kernel.Launch
import proofs.«119951_j6674379178178_1_alg».proof.Proof.Gen.Kernel.Points
import proofs.«119951_j6674379178178_1_alg».proof.Proof.Gen.Kernel.Frame
import proofs.«119951_j6674379178178_1_alg».proof.Proof.Gen.KernelIdeal
import proofs.«119951_j6674379178178_1_alg».proof.Proof.Gen.KernelIdeal.Skeleton
import proofs.«119951_j6674379178178_1_alg».proof.Proof.Gen.KernelIdeal.Launch
import proofs.«119951_j6674379178178_1_alg».proof.Proof.Gen.KernelIdeal.Points
import proofs.«119951_j6674379178178_1_alg».proof.Proof.Gen.KernelIdeal.Frame
import proofs.«119951_j6674379178178_1_alg».proof.Proof.Gen.ReferenceIdeal
import proofs.«119951_j6674379178178_1_alg».proof.Proof.Gen.Pre_finite_inputs
import proofs.«119951_j6674379178178_1_alg».proof.Proof.Gen.ReferenceIdeal.Run
import proofs.«119951_j6674379178178_1_alg».proof.Proof.Gen.ReferenceIdeal.Read
import proofs.«119951_j6674379178178_1_alg».proof.Proof.KernelNet
import proofs.«119951_j6674379178178_1_alg».proof.Proof.RefNet
import Idealize.ShloMosaic.Adequacy
import Idealize.ShloMosaic.Init

noncomputable section

namespace Cert.Proof

open Idealize.ShloMosaic Idealize.ShloMosaic.TcCoe Idealize.SL.Sem

/-- The two programs' neighbour means are one function of the feature array: the same host operations, with the
    same dimension numbers, on the same edge list. -/
theorem mean_eq (e : (⟨Cert.KernelIdeal.S2x1000000, .i32⟩ : BufTy).Contents (Elt Ideal))
    (z : (⟨Cert.KernelIdeal.S100000x128, .f32⟩ : BufTy).Contents (Elt Ideal)) :
    Cert.KernelIdeal.Hand.meanOver (Cert.KernelIdeal.Hand.srcOf e) (Cert.KernelIdeal.Hand.dstOf e) z = Cert.SageRef.agg e z := by
  rfl

/-- Each program runs, faults nowhere and leaves its arguments as launched: the two kernel programs by their
    generated frames, the reference by its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel program ends with its result array at the network of the launch's arrays (its run, the
    result read back through the regions and the host stretches); the idealized reference ends with its result at
    the same network of ITS arrays (its generated run, read stage by stage); the arrays agree, and the neighbour
    means are one function. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Hand.result_net m ρ c), (h c).2⟩)
    (Cert.KernelIdeal.Hand.run_main (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v54_eq, Cert.SageRef.ref_is_net, a0, a1, a2, a3, a4, a5, a6, a7]
  refine congrArg (fun A => Cert.Sage.net A _ _ _ _ _ _ _) (funext fun z => ?_)
  exact (mean_eq _ z).symm

/-- The idealization rewrote no operation of the kernel program, so there is nothing to preserve. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
